-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 29
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S128x128, .f32⟩
  | .hbm, ⟨28, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000, .f32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GinRow.lean ====
/-
  One node's update in a graph-isomorphism layer, as a function of two rows of 128 extended reals.

  Given the aggregated features `a` of a node (its own features plus the sum of its in-neighbours') and its own
  features `x`, the layer computes
      h₁ = max(a·W₁ + b₁, 0),   h₂ = h₁·W₂ + b₂,
      μ = (Σ h₂)/128,   d = h₂ − μ,   σ² = (Σ d²)/128,
      out = x + max(d · (σ² + ε)^(−1/2) · γ + β, 0),
  every operation the exact one on the extended reals, the three constants (0, 128 and ε) the values of the
  words both programs print. Both the tiled kernel and the whole-array reference evaluate this row function on
  every node; nothing in it needs the entries to be finite.
-/
import Idealize.ShloMosaic.Lib.ValueIdx
import Idealize.ShloMosaic.PureOps.Ideal.Laws

noncomputable section

namespace GinRow

open Idealize.ShloMosaic

/-- A row of 128 features, and a 128 × 128 weight matrix read as (input feature, output feature). -/
abbrev Row : Type := Fin 128 → EReal
abbrev Mat : Type := Fin 128 → Fin 128 → EReal

/-- The three constants, as the values of their printed words: 0, 128 and the variance's ε. -/
abbrev zeroW : EReal := Ideal.ofBits .f32 0x00000000#32
abbrev widthW : EReal := Ideal.ofBits .f32 0x43000000#32
abbrev epsW : EReal := Ideal.ofBits .f32 0x3727C5AC#32

/-- A linear layer on a row: output feature j is Σₖ aₖ · W(k, j) + bⱼ. -/
def affine (a : Row) (W : Mat) (b : Row) : Row := fun j => (∑ k : Fin 128, a k * W k j) + b j

/-- The rectifier, entry by entry. -/
def relu (h : Row) : Row := fun j => max (h j) zeroW

/-- The mean of a row: its sum divided by 128. -/
def mean (h : Row) : EReal := Ideal.div (∑ k : Fin 128, h k) widthW

/-- The row with its mean taken off. -/
def centred (h : Row) : Row := fun j => h j - mean h

/-- The centred row scaled by the inverse square root of its variance plus ε. -/
def normed (h : Row) : Row :=
  fun j => centred h j * Ideal.rsqrt (mean (fun k => centred h k * centred h k) + epsW)

/-- The node update: the residual `x` plus the rectified, normalised, scaled and shifted two-layer perceptron of `a`. -/
def update (a x : Row) (W1 : Mat) (b1 : Row) (W2 : Mat) (b2 g bt : Row) : Row :=
  fun j => x j + max (normed (affine (relu (affine a W1 b1)) W2 b2) j * g j + bt j) zeroW

open Idealize.ShloMosaic.ValueIdx in
/-- The whole layer on an N-node array: node r's row of the result is the update of row r of the aggregated
    array `A` and row r of the feature array `X`. -/
def layer {N : ℕ} (A X : (⟨2, ![N, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g bt : (⟨1, ![128]⟩ : Shape).Idx → EReal) : (⟨2, ![N, 128]⟩ : Shape).Idx → EReal :=
  fun i => update (fun k => A (ix2 (i 0) k)) (fun k => X (ix2 (i 0) k)) (fun k j => W1 (ix2 k j)) (fun j => b1 (ix1 j))
    (fun k j => W2 (ix2 k j)) (fun j => b2 (ix1 j)) (fun j => g (ix1 j)) (fun j => bt (ix1 j)) (i 1)

end GinRow

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«169018_j72353019069071_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.KernelRow.lean ====
/-
  What the kernel's body leaves at row p, column q of a 2000-row block: the node update of row p of the
  aggregated block and row p of the feature block.

  The body's arithmetic is two products on the matrix unit (each into a zero accumulator, the changes of float
  format being the identity at exact arithmetic), a bias row broadcast down the rows, the rectifier, two row
  sums kept as columns, divided by 128 and broadcast back along the rows, an inverse square root taken on a
  column, and pointwise products and sums. Each non-pointwise piece is read at (p, q): a product as the sum
  over the contracted feature, a kept row sum as the sum over the row, a broadcast row or column as its entry.
-/
import proofs.«169018_j72353019069071_1_alg».proof.Proof.Gen.KernelIdeal.Value
import proofs.«169018_j72353019069071_1_alg».proof.Proof.GinRow
import proofs.«169018_j72353019069071_1_alg».proof.Proof.LibMatmulIdx
import proofs.«169018_j72353019069071_1_alg».proof.Proof.LibColumnOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The body's stages as whole-block functions -/

/-- A linear layer on a block: the product with the weights into a zero accumulator, plus the bias row. -/
def layerV (x : FVec Ideal S2000x128 .f32) (w : Vec Ideal S128x128 .f32) (b : Vec Ideal S128 .f32) : FVec Ideal S2000x128 .f32 :=
  addf (matmul dot_S2000x128_S128x128_S2000x128_1_0_0_1_n_n none (truncf .bf16 x bitsLt_bf16_f32)
      (truncf .bf16 (shapeCast S128x128 w shapeCasts_S128x128_S128x128) bitsLt_bf16_f32) (constant S2000x128 .f32 0x00000000#32))
    (broadcastTo S2000x128 (shapeCast S1x128 b shapeCasts_S128_S1x128) broadcasts_S1x128_S2000x128)

/-- The rectifier on a block. -/
def reluV (x : FVec Ideal S2000x128 .f32) : FVec Ideal S2000x128 .f32 :=
  maximumf x (broadcast S2000x128 (Scalar.ofBits .f32 0x00000000#32))

/-- The rows' means, kept as a column. -/
def meanV (z : FVec Ideal S2000x128 .f32) : FVec Ideal S2000x1 .f32 :=
  divf (shapeCast S2000x1 (multiReduction .add [1] S2000 z 0x00000000#32 reduces_S2000x128_S2000 (.inl rfl) rfl) shapeCasts_S2000_S2000x1)
    (broadcast S2000x1 (Scalar.ofBits .f32 0x43000000#32))

/-- Each row with its mean taken off. -/
def centredV (y : FVec Ideal S2000x128 .f32) : FVec Ideal S2000x128 .f32 :=
  subf y (broadcastTo S2000x128 (meanV y) broadcasts_S2000x1_S2000x128)

/-- Each centred row scaled by the inverse square root of its variance plus ε. -/
def normedV (y : FVec Ideal S2000x128 .f32) : FVec Ideal S2000x128 .f32 :=
  mulf (centredV y) (broadcastTo S2000x128 (rsqrt (addf (meanV (mulf (centredV y) (centredV y)))
    (broadcast S2000x1 (Scalar.ofBits .f32 0x3727C5AC#32)))) broadcasts_S2000x1_S2000x128)

/-- The body's long payload is the composition of these stages. -/
theorem pay2_eq (v0 : Vec Ideal S2000x128 .f32) (v3 : Vec Ideal S128x128 .f32) (v8 : Vec Ideal S128 .f32)
    (v14 : Vec Ideal S128x128 .f32) (v19 : Vec Ideal S128 .f32) :
    k0_pay2 (F := Ideal) v0 v3 v8 v14 v19
      = normedV (layerV (reluV (layerV (shapeCast S2000x128 v0 shapeCasts_S2000x128_S2000x128) v3 v8)) v14 v19) := rfl

/-! ## The product's operand indices -/

theorem lhs0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

theorem rhs0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

theorem rhs1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## Each stage read at (p, q) -/

/-- A linear layer at (p, q): the row function's linear layer of row p. -/
theorem layerV_apply (x : FVec Ideal S2000x128 .f32) (w : Vec Ideal S128x128 .f32) (b : Vec Ideal S128 .f32)
    (p : Fin 2000) (q : Fin 128) :
    layerV x w b (ix2 p q) = GinRow.affine (fun k => x (ix2 p k)) (fun k j => w (ix2 k j)) (fun j => b (ix1 j)) q := by
  have hm : matmul dot_S2000x128_S128x128_S2000x128_1_0_0_1_n_n none (truncf .bf16 x bitsLt_bf16_f32)
      (truncf .bf16 (shapeCast S128x128 w shapeCasts_S128x128_S128x128) bitsLt_bf16_f32) (constant S2000x128 .f32 0x00000000#32) (ix2 p q)
      = ∑ k : Fin 128, x (ix2 p k) * w (ix2 k q) := by
    refine (LibMatmulIdx.matmul2_apply dot_S2000x128_S128x128_S2000x128_1_0_0_1_n_n rfl rfl lhs0 lhs1 rhs0 rhs1 none _ _ (ix2 p q)).trans ?_
    refine Finset.sum_congr rfl fun k _ => ?_
    rw [shapeCast_self]
    rfl
  have hb : broadcastTo S2000x128 (shapeCast S1x128 b shapeCasts_S128_S1x128) broadcasts_S1x128_S2000x128 (ix2 p q) = b (ix1 q) :=
    (broadcastTo_1b_ab_apply _ _ p q).trans (shapeCast_a_1a_apply b _ 0 q)
  exact congrArg₂ (· + ·) hm hb

/-- The rectifier at an index. -/
theorem reluV_apply (x : FVec Ideal S2000x128 .f32) (i : S2000x128.Idx) : reluV x i = max (x i) GinRow.zeroW := rfl

/-- A row's mean, kept as a column, at (p, 0): the mean of row p. -/
theorem meanV_apply (z : FVec Ideal S2000x128 .f32) (p : Fin 2000) (u : Fin 1) :
    meanV z (ix2 p u) = GinRow.mean (fun k => z (ix2 p k)) := by
  have hs : shapeCast S2000x1 (multiReduction .add [1] S2000 z 0x00000000#32 reduces_S2000x128_S2000 (.inl rfl) rfl) shapeCasts_S2000_S2000x1 (ix2 p u)
      = ∑ k : Fin 128, z (ix2 p k) :=
    (LibKeepdims.shapeCast_col_apply _ _ p u).trans (LibKeepdims.sum_axis1_apply z _ reduces_S2000x128_S2000 _ rfl p)
  exact congrArg (fun t => Ideal.div t GinRow.widthW) hs

/-- A centred block at (p, q). -/
theorem centredV_apply (y : FVec Ideal S2000x128 .f32) (p : Fin 2000) (q : Fin 128) :
    centredV y (ix2 p q) = GinRow.centred (fun k => y (ix2 p k)) q := by
  have hb : broadcastTo S2000x128 (meanV y) broadcasts_S2000x1_S2000x128 (ix2 p q) = GinRow.mean (fun k => y (ix2 p k)) :=
    (LibColumnOps.broadcastTo_col_apply _ _ p q).trans (meanV_apply y p 0)
  exact congrArg (fun t => y (ix2 p q) - t) hb

/-- A normalised block at (p, q). -/
theorem normedV_apply (y : FVec Ideal S2000x128 .f32) (p : Fin 2000) (q : Fin 128) :
    normedV y (ix2 p q) = GinRow.normed (fun k => y (ix2 p k)) q := by
  have hv : meanV (mulf (centredV y) (centredV y)) (ix2 p (0 : Fin 1))
      = GinRow.mean (fun k => GinRow.centred (fun k => y (ix2 p k)) k * GinRow.centred (fun k => y (ix2 p k)) k) := by
    refine (meanV_apply _ p 0).trans (congrArg GinRow.mean (funext fun k => ?_))
    exact congrArg₂ (· * ·) (centredV_apply y p k) (centredV_apply y p k)
  have hr : broadcastTo S2000x128 (rsqrt (addf (meanV (mulf (centredV y) (centredV y)))
      (broadcast S2000x1 (Scalar.ofBits .f32 0x3727C5AC#32)))) broadcasts_S2000x1_S2000x128 (ix2 p q)
      = Ideal.rsqrt (GinRow.mean (fun k => GinRow.centred (fun k => y (ix2 p k)) k * GinRow.centred (fun k => y (ix2 p k)) k) + GinRow.epsW) :=
    (LibColumnOps.broadcastTo_col_apply _ _ p q).trans (congrArg (fun t => Ideal.rsqrt (t + GinRow.epsW)) hv)
  exact congrArg₂ (· * ·) (centredV_apply y p q) hr

/-- THE LONG PAYLOAD at (p, q): the normalised two-layer perceptron of row p of the aggregated block. -/
theorem pay2_apply (v0 : Vec Ideal S2000x128 .f32) (v3 : Vec Ideal S128x128 .f32) (v8 : Vec Ideal S128 .f32)
    (v14 : Vec Ideal S128x128 .f32) (v19 : Vec Ideal S128 .f32) (p : Fin 2000) (q : Fin 128) :
    k0_pay2 (F := Ideal) v0 v3 v8 v14 v19 (ix2 p q)
      = GinRow.normed (GinRow.affine (GinRow.relu (GinRow.affine (fun k => v0 (ix2 p k)) (fun k j => v3 (ix2 k j)) (fun j => v8 (ix1 j))))
          (fun k j => v14 (ix2 k j)) (fun j => v19 (ix1 j))) q := by
  rw [pay2_eq]
  refine (normedV_apply _ p q).trans (congrArg (fun h => GinRow.normed h q) ?_)
  funext j
  refine (layerV_apply _ v14 v19 p j).trans (congrArg (fun h => GinRow.affine h _ _ j) ?_)
  funext k
  refine (reluV_apply _ _).trans (congrArg (fun t => max t GinRow.zeroW) ?_)
  refine (layerV_apply _ v3 v8 p k).trans ?_
  rw [shapeCast_self]

end Cert.KernelIdeal.Row

end
-- ==== Proof.KernelBlock.lean ====
/-
  What the kernel's body leaves in its output block, for any staged blocks, and the whole-array function the
  blocks will be read against.

  The body stores one 2000 × 128 block: the residual block plus the rectified, scaled and shifted long payload.
  Read at (p, q) it is the node update of row p of the staged aggregated block and row p of the staged feature
  block, the weights and parameter rows staged whole. The index maps of the nine windows, decided over the 50
  grid points, say which rows those are.
-/
import proofs.«169018_j72353019069071_1_alg».proof.Proof.KernelRow

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- What the body leaves in the output block at (p, q), for any staged blocks: the update of row p. -/
theorem block_apply (X0 X1 : Vec Ideal S2000x128 .f32) (X2 : Vec Ideal S128x128 .f32) (X3 : Vec Ideal S128 .f32)
    (X4 : Vec Ideal S128x128 .f32) (X5 X6 X7 : Vec Ideal S128 .f32) (p : Fin 2000) (q : Fin 128) :
    out0_8 X0 X1 X2 X3 X4 X5 X6 X7 (ix2 p q)
      = GinRow.update (fun k => X0 (ix2 p k)) (fun k => X1 (ix2 p k)) (fun k j => X2 (ix2 k j)) (fun j => X3 (ix1 j))
          (fun k j => X4 (ix2 k j)) (fun j => X5 (ix1 j)) (fun j => X6 (ix1 j)) (fun j => X7 (ix1 j)) q := by
  unfold out0_8
  rw [View.ld_unit_zero (S := S2000x128) hz2, View.ld_unit_zero (S := S2000x128) hz2, View.ld_unit_zero (S := S128x128) hz2,
    View.ld_unit_zero (S := S128x128) hz2, View.ld_unit_zero (S := S128) hz1, View.ld_unit_zero (S := S128) hz1,
    View.ld_unit_zero (S := S128) hz1, View.ld_unit_zero (S := S128) hz1]
  refine (Value.canon8_eq X1 X0 X2 X3 X4 X5 X6 X7 (ix2 p q)).trans ?_
  have e0 : Value.ix8_0 (ix2 p q) = ix2 p q := funext fun a => Fin.ext (by match a with | ⟨0, _⟩ => rfl | ⟨1, _⟩ => rfl)
  have e1 : Value.ix8_1 (ix2 p q) = ix2 p q := funext fun a => Fin.ext (by match a with | ⟨0, _⟩ => rfl | ⟨1, _⟩ => rfl)
  have e2 : Value.ix8_2 (ix2 p q) = ix1 q := funext fun a => Fin.ext (by match a with | ⟨0, _⟩ => rfl)
  have e3 : Value.ix8_3 (ix2 p q) = ix1 q := funext fun a => Fin.ext (by match a with | ⟨0, _⟩ => rfl)
  show X1 (Value.ix8_0 (ix2 p q)) + max (k0_pay2 (F := Ideal) X0 X2 X3 X4 X5 (Value.ix8_1 (ix2 p q)) * X6 (Value.ix8_2 (ix2 p q)) + X7 (Value.ix8_3 (ix2 p q))) GinRow.zeroW = _
  rw [e0, e1, e2, e3, Row.pay2_apply]
  rfl

/-- The layer of the arrays as the region finds them: the aggregated array, the features, the two transposed weight
    matrices and the four parameter rows. -/
def result (c : Dev nD) : S100000x128.Idx → EReal :=
  GinRow.layer (N := 100000) (V m c main_v14) (V m c main_arg0) (V m c main_v15) (V m c main_arg3) (V m c main_v16)
    (V m c main_arg5) (V m c main_arg6) (V m c main_arg7)

/-- The layer at an index, spelt out. -/
theorem result_apply (c : Dev nD) (i : S100000x128.Idx) :
    result m c i = GinRow.update (fun k => (V m c main_v14 : S100000x128.Idx → EReal) (ix2 (i 0) k))
      (fun k => (V m c main_arg0 : S100000x128.Idx → EReal) (ix2 (i 0) k)) (fun k j => (V m c main_v15 : S128x128.Idx → EReal) (ix2 k j))
      (fun j => (V m c main_arg3 : S128.Idx → EReal) (ix1 j)) (fun k j => (V m c main_v16 : S128x128.Idx → EReal) (ix2 k j))
      (fun j => (V m c main_arg5 : S128.Idx → EReal) (ix1 j)) (fun j => (V m c main_arg6 : S128.Idx → EReal) (ix1 j))
      (fun j => (V m c main_arg7 : S128.Idx → EReal) (ix1 j)) (i 1) := by
  unfold result GinRow.layer
  rfl

/-- The index maps, decided over the 50 points: the two row-blocked inputs move with the output, every other
    block index is 0, and the output's row-block index is the point. -/
theorem idx_facts : ∀ t : Fin cfg0.N, win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 1) = 0 ∧ win0_7.index t (0 : Fin 1) = 0
    ∧ win0_8.index t (1 : Fin 2) = 0 ∧ win0_8.index t (0 : Fin 2) = t.val :=
  (by decide +kernel : ∀ t : Fin grid0.N, _)

end Cert.KernelIdeal.Whole

end
-- ==== Proof.KernelWhole.lean ====
/-
  From blocks to the array: after the run, the kernel's result array is the node update applied to every row.

  The grid has 50 points; point t stages rows 2000·t … 2000·t + 1999 of the aggregated array and of the feature
  array, the whole of both weight matrices and of the four parameter rows, and writes back rows
  2000·t … 2000·t + 1999 of the result. A row of the result depends only on the same row of the two staged
  arrays, so what point t writes back is block t of ONE whole-array function, the layer of the arrays as the
  region finds them; the 50 blocks tile the 100000 rows, so the array ends holding that function.
-/
import proofs.«169018_j72353019069071_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The row function takes equal arguments to equal values. -/
theorem update_congr {a a' x x' : GinRow.Row} {W1 W1' : GinRow.Mat} {b1 b1' : GinRow.Row} {W2 W2' : GinRow.Mat}
    {b2 b2' g g' bt bt' : GinRow.Row} {q q' : Fin 128} (ha : a = a') (hx : x = x') (hW1 : W1 = W1') (hb1 : b1 = b1')
    (hW2 : W2 = W2') (hb2 : b2 = b2') (hg : g = g') (hbt : bt = bt') (hq : q = q') :
    GinRow.update a x W1 b1 W2 b2 g bt q = GinRow.update a' x' W1' b1' W2' b2' g' bt' q' := by
  rw [ha, hx, hW1, hb1, hW2, hb2, hg, hbt, hq]

/-- WHAT POINT t WRITES BACK is block t of the layer of the arrays as the region finds them: row p of the block is
    row 2000·t + p of the two row-blocked arrays, and the weights and parameter rows are staged whole. -/
theorem flushed_eq (c : Dev nD) (t : Fin cfg0.N) :
    (dats m 0 c).flushed 8 t = ((cfg0.win 8).blk t).view.read (Elt Ideal) (result m c) := by
  rw [Value.flushed8]
  obtain ⟨e00, e01, e10, e11, e20, e21, e3, e40, e41, e5, e6, e7, e81, e80⟩ := idx_facts t
  funext y
  obtain ⟨p, q, rfl⟩ : ∃ (p : Fin 2000) (q : Fin 128), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
      = result m c (((cfg0.win 8).blk t).view.emb (ix2 p q))
  refine (block_apply (iblk m c 0 t) (iblk m c 1 t) (iblk m c 2 t) (iblk m c 3 t) (iblk m c 4 t) (iblk m c 5 t) (iblk m c 6 t) (iblk m c 7 t) p q).trans ?_
  have hq : q = (((cfg0.win 8).blk t).view.emb (ix2 p q)) 1 :=
    Fin.ext (show q.val = win0_8.index t (1 : Fin 2) * 128 + 1 * q.val by omega)
  have h0 : (fun k : Fin 128 => iblk m c 0 t (ix2 p k)) = fun k => (V m c main_v14 : S100000x128.Idx → EReal) (ix2 ((((cfg0.win 8).blk t).view.emb (ix2 p q)) 0) k) := by
    funext k
    show (V m c main_v14 : S100000x128.Idx → EReal) (((cfg0.win 0).blk t).view.emb (ix2 p k)) = _
    have h : ((cfg0.win 0).blk t).view.emb (ix2 p k) = ix2 ((((cfg0.win 8).blk t).view.emb (ix2 p q)) 0) k := by
      funext a; apply Fin.ext
      match a with
      | ⟨0, _⟩ => show win0_0.index t (0 : Fin 2) * 2000 + 1 * p.val = win0_8.index t (0 : Fin 2) * 2000 + 1 * p.val; omega
      | ⟨1, _⟩ => show win0_0.index t (1 : Fin 2) * 128 + 1 * k.val = k.val; omega
    exact congrArg (V m c main_v14 : S100000x128.Idx → EReal) h
  have h1 : (fun k : Fin 128 => iblk m c 1 t (ix2 p k)) = fun k => (V m c main_arg0 : S100000x128.Idx → EReal) (ix2 ((((cfg0.win 8).blk t).view.emb (ix2 p q)) 0) k) := by
    funext k
    show (V m c main_arg0 : S100000x128.Idx → EReal) (((cfg0.win 1).blk t).view.emb (ix2 p k)) = _
    have h : ((cfg0.win 1).blk t).view.emb (ix2 p k) = ix2 ((((cfg0.win 8).blk t).view.emb (ix2 p q)) 0) k := by
      funext a; apply Fin.ext
      match a with
      | ⟨0, _⟩ => show win0_1.index t (0 : Fin 2) * 2000 + 1 * p.val = win0_8.index t (0 : Fin 2) * 2000 + 1 * p.val; omega
      | ⟨1, _⟩ => show win0_1.index t (1 : Fin 2) * 128 + 1 * k.val = k.val; omega
    exact congrArg (V m c main_arg0 : S100000x128.Idx → EReal) h
  have h2 : (fun k j : Fin 128 => iblk m c 2 t (ix2 k j)) = fun k j => (V m c main_v15 : S128x128.Idx → EReal) (ix2 k j) := by
    funext k j
    show (V m c main_v15 : S128x128.Idx → EReal) (((cfg0.win 2).blk t).view.emb (ix2 k j)) = _
    have h : ((cfg0.win 2).blk t).view.emb (ix2 k j) = ix2 k j := by
      funext a; apply Fin.ext
      match a with
      | ⟨0, _⟩ => show win0_2.index t (0 : Fin 2) * 128 + 1 * k.val = k.val; omega
      | ⟨1, _⟩ => show win0_2.index t (1 : Fin 2) * 128 + 1 * j.val = j.val; omega
    exact congrArg (V m c main_v15 : S128x128.Idx → EReal) h
  have h3 : (fun j : Fin 128 => iblk m c 3 t (ix1 j)) = fun j => (V m c main_arg3 : S128.Idx → EReal) (ix1 j) := by
    funext j
    show (V m c main_arg3 : S128.Idx → EReal) (((cfg0.win 3).blk t).view.emb (ix1 j)) = _
    have h : ((cfg0.win 3).blk t).view.emb (ix1 j) = ix1 j := by
      funext a; apply Fin.ext
      match a with
      | ⟨0, _⟩ => show win0_3.index t (0 : Fin 1) * 128 + 1 * j.val = j.val; omega
    exact congrArg (V m c main_arg3 : S128.Idx → EReal) h
  have h4 : (fun k j : Fin 128 => iblk m c 4 t (ix2 k j)) = fun k j => (V m c main_v16 : S128x128.Idx → EReal) (ix2 k j) := by
    funext k j
    show (V m c main_v16 : S128x128.Idx → EReal) (((cfg0.win 4).blk t).view.emb (ix2 k j)) = _
    have h : ((cfg0.win 4).blk t).view.emb (ix2 k j) = ix2 k j := by
      funext a; apply Fin.ext
      match a with
      | ⟨0, _⟩ => show win0_4.index t (0 : Fin 2) * 128 + 1 * k.val = k.val; omega
      | ⟨1, _⟩ => show win0_4.index t (1 : Fin 2) * 128 + 1 * j.val = j.val; omega
    exact congrArg (V m c main_v16 : S128x128.Idx → EReal) h
  have h5 : (fun j : Fin 128 => iblk m c 5 t (ix1 j)) = fun j => (V m c main_arg5 : S128.Idx → EReal) (ix1 j) := by
    funext j
    show (V m c main_arg5 : S128.Idx → EReal) (((cfg0.win 5).blk t).view.emb (ix1 j)) = _
    have h : ((cfg0.win 5).blk t).view.emb (ix1 j) = ix1 j := by
      funext a; apply Fin.ext
      match a with
      | ⟨0, _⟩ => show win0_5.index t (0 : Fin 1) * 128 + 1 * j.val = j.val; omega
    exact congrArg (V m c main_arg5 : S128.Idx → EReal) h
  have h6 : (fun j : Fin 128 => iblk m c 6 t (ix1 j)) = fun j => (V m c main_arg6 : S128.Idx → EReal) (ix1 j) := by
    funext j
    show (V m c main_arg6 : S128.Idx → EReal) (((cfg0.win 6).blk t).view.emb (ix1 j)) = _
    have h : ((cfg0.win 6).blk t).view.emb (ix1 j) = ix1 j := by
      funext a; apply Fin.ext
      match a with
      | ⟨0, _⟩ => show win0_6.index t (0 : Fin 1) * 128 + 1 * j.val = j.val; omega
    exact congrArg (V m c main_arg6 : S128.Idx → EReal) h
  have h7 : (fun j : Fin 128 => iblk m c 7 t (ix1 j)) = fun j => (V m c main_arg7 : S128.Idx → EReal) (ix1 j) := by
    funext j
    show (V m c main_arg7 : S128.Idx → EReal) (((cfg0.win 7).blk t).view.emb (ix1 j)) = _
    have h : ((cfg0.win 7).blk t).view.emb (ix1 j) = ix1 j := by
      funext a; apply Fin.ext
      match a with
      | ⟨0, _⟩ => show win0_7.index t (0 : Fin 1) * 128 + 1 * j.val = j.val; omega
    exact congrArg (V m c main_arg7 : S128.Idx → EReal) h
  refine Eq.trans ?_ (result_apply m c _).symm
  exact update_congr h0 h1 h2 h3 h4 h5 h6 h7 hq

/-- An index of the result array is in point t's block iff each coordinate is in the block's range on its axis. -/
theorem mem_blk (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v17).slice (win0_8.rect t)).set ↔ _
  rw [View.set_slice_whole, Rect.mem_set_unit]
  exact Iff.rfl

/-- The 50 blocks tile the rows: row r is in the block of point r / 2000. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have ht : (i 0).val / 2000 < cfg0.N := Nat.lt_of_lt_of_eq (by omega) N_0.symm
  obtain ⟨-, -, -, -, -, -, -, -, -, -, -, -, e81, e80⟩ := idx_facts ⟨(i 0).val / 2000, ht⟩
  refine ⟨⟨(i 0).val / 2000, ht⟩, flush0_8 _, ?_⟩
  rw [mem_blk]
  intro a
  match a with
  | ⟨0, _⟩ =>
    show win0_8.index ⟨(i 0).val / 2000, ht⟩ (0 : Fin 2) * 2000 ≤ (i 0).val ∧ (i 0).val < win0_8.index ⟨(i 0).val / 2000, ht⟩ (0 : Fin 2) * 2000 + 2000
    rw [e80]
    show (i 0).val / 2000 * 2000 ≤ (i 0).val ∧ (i 0).val < (i 0).val / 2000 * 2000 + 2000
    omega
  | ⟨1, _⟩ =>
    show win0_8.index ⟨(i 0).val / 2000, ht⟩ (1 : Fin 2) * 128 ≤ (i 1).val ∧ (i 1).val < win0_8.index ⟨(i 0).val / 2000, ht⟩ (1 : Fin 2) * 128 + 128
    rw [e81]
    omega

/-- THE RESULT ARRAY after the run: the layer of the arrays as the region finds them. -/
theorem final (c : Dev nD) : (dats m 0 c).arrAt 8 cfg0.N = result m c :=
  (dats m 0 c).arrAt_eq_of_cover 8 (result m c) (fun t _ => flushed_eq m c t) cover

/-- The kernel's run re-posted: the result array at the layer of the region-entry arrays, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.KernelHost.lean ====
/-
  The arrays the kernel's region finds, as functions of the arguments.

  Before the region the kernel's program computes, with the same host operations as the reference, the
  aggregated array (each node's features plus the scatter-added features gathered along the edges) and the two
  transposed weight matrices. The other five windows stage arguments as launched.
-/
import proofs.«169018_j72353019069071_1_alg».proof.Proof.Gen.KernelIdeal.Frame
import proofs.«169018_j72353019069071_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem

variable (m : (ℓ : Loc nD τ sig) → Buf (Elt Ideal) ℓ)

/-- The aggregated array the region finds is the reference's aggregation stage of the launched features and edges. -/
theorem V_agg (c : Dev nD) :
    (V m c main_v14 : S100000x128.Idx → EReal)
      = Cert.ReferenceIdeal.Read.val_main_v14 (F := Ideal) (m ((c : Thread nD τ).loc main_arg0)) (m ((c : Thread nD τ).loc main_arg1)) := by
  dsimp only [Gen.V, Gen.hostOps0]
  after_results
  rfl

/-- The first weight matrix the region finds is the launched one transposed. -/
theorem V_w1 (c : Dev nD) :
    (V m c main_v15 : S128x128.Idx → EReal)
      = Cert.ReferenceIdeal.Read.val_main_v15 (F := Ideal) (m ((c : Thread nD τ).loc main_arg2)) := by
  dsimp only [Gen.V, Gen.hostOps0]
  after_results
  rfl

/-- The second weight matrix the region finds is the launched one transposed. -/
theorem V_w2 (c : Dev nD) :
    (V m c main_v16 : S128x128.Idx → EReal)
      = Cert.ReferenceIdeal.Read.val_main_v21 (F := Ideal) (m ((c : Thread nD τ).loc main_arg4)) := by
  dsimp only [Gen.V, Gen.hostOps0]
  after_results
  rfl

end Cert.KernelIdeal.HostPrefix

end
-- ==== Proof.RefWhole.lean ====
/-
  The reference, read row by row: its result at node r, feature q is the node update of row r of its aggregated
  array and row r of the features.

  The reference applies the same operations as the kernel's body to whole 100000-row arrays: two products with the
  transposed weights (sums over the contracted feature), bias rows broadcast down the rows, the rectifier, row sums
  started from the zero word and kept as columns, divisions by 128, an inverse square root on a column, and
  pointwise products and sums. Read at (r, q) each stage depends on row r only. The reduction's initial value is
  the zero word, so it drops out of the sum.
-/
import proofs.«169018_j72353019069071_1_alg».proof.Proof.Gen.ReferenceIdeal.Read
import proofs.«169018_j72353019069071_1_alg».proof.Proof.GinRow
import Idealize.ShloMosaic.Lib.ValueIdx
import Idealize.ShloMosaic.PureOps.Ideal.Laws

noncomputable section

namespace Cert.ReferenceIdeal.Whole

open Cert.ReferenceIdeal Cert.ReferenceIdeal.Read Idealize.ShloMosaic Idealize.ShloMosaic.ValueIdx

variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 : (⟨S128, .f32⟩ : BufTy).Contents (Elt Ideal))

/-! ## Where each stage reads its operand, at (r, q) -/

theorem lidx16 (r : Fin 100000) (q k : Fin 128) : lidx_main_v16 (ix2 r q) k = ix2 r k :=
  funext fun a => Fin.ext (by match a with | ⟨0, _⟩ => rfl | ⟨1, _⟩ => rfl)
theorem ridx16 (r : Fin 100000) (q k : Fin 128) : ridx_main_v16 (ix2 r q) k = ix2 k q :=
  funext fun a => Fin.ext (by match a with | ⟨0, _⟩ => rfl | ⟨1, _⟩ => rfl)
theorem lidx22 (r : Fin 100000) (q k : Fin 128) : lidx_main_v22 (ix2 r q) k = ix2 r k :=
  funext fun a => Fin.ext (by match a with | ⟨0, _⟩ => rfl | ⟨1, _⟩ => rfl)
theorem ridx22 (r : Fin 100000) (q k : Fin 128) : ridx_main_v22 (ix2 r q) k = ix2 k q :=
  funext fun a => Fin.ext (by match a with | ⟨0, _⟩ => rfl | ⟨1, _⟩ => rfl)
theorem idx17_18 (r : Fin 100000) (q : Fin 128) : idx_main_v17 (idx_main_v18 (ix2 r q)) = ix1 q :=
  funext fun a => Fin.ext (by match a with | ⟨0, _⟩ => rfl)
theorem idx23_24 (r : Fin 100000) (q : Fin 128) : idx_main_v23 (idx_main_v24 (ix2 r q)) = ix1 q :=
  funext fun a => Fin.ext (by match a with | ⟨0, _⟩ => rfl)
theorem idx44_45 (r : Fin 100000) (q : Fin 128) : idx_main_v44 (idx_main_v45 (ix2 r q)) = ix1 q :=
  funext fun a => Fin.ext (by match a with | ⟨0, _⟩ => rfl)
theorem idx47_48 (r : Fin 100000) (q : Fin 128) : idx_main_v47 (idx_main_v48 (ix2 r q)) = ix1 q :=
  funext fun a => Fin.ext (by match a with | ⟨0, _⟩ => rfl)
theorem idx26_27 (r : Fin 100000) (u : Fin 1) (k : Fin 128) : idx_main_v26 (idx_main_v27 (ix2 r u)) k = ix2 r k :=
  funext fun a => Fin.ext (by match a with | ⟨0, _⟩ => rfl | ⟨1, _⟩ => rfl)
theorem idx33_34 (r : Fin 100000) (u : Fin 1) (k : Fin 128) : idx_main_v33 (idx_main_v34 (ix2 r u)) k = ix2 r k :=
  funext fun a => Fin.ext (by match a with | ⟨0, _⟩ => rfl | ⟨1, _⟩ => rfl)
theorem idx30 (r : Fin 100000) (q : Fin 128) : idx_main_v30 (ix2 r q) = ix2 r (0 : Fin 1) :=
  funext fun a => Fin.ext (by match a with | ⟨0, _⟩ => rfl | ⟨1, _⟩ => rfl)
theorem idx37 (r : Fin 100000) (q : Fin 128) : idx_main_v37 (ix2 r q) = ix2 r (0 : Fin 1) :=
  funext fun a => Fin.ext (by match a with | ⟨0, _⟩ => rfl | ⟨1, _⟩ => rfl)
theorem idx42 (r : Fin 100000) (q : Fin 128) : idx_main_v42 (ix2 r q) = ix2 r (0 : Fin 1) :=
  funext fun a => Fin.ext (by match a with | ⟨0, _⟩ => rfl | ⟨1, _⟩ => rfl)

/-! ## The stages, at (r, q) -/

/-- The first linear layer. -/
theorem v19_row (r : Fin 100000) (q : Fin 128) :
    val_main_v19 (F := Ideal) x0 x1 x2 x3 (ix2 r q)
      = GinRow.affine (fun k => val_main_v14 (F := Ideal) x0 x1 (ix2 r k)) (fun k j => val_main_v15 (F := Ideal) x2 (ix2 k j)) (fun j => x3 (ix1 j)) q := by
  rw [val_main_v19_apply, val_main_v16_apply, val_main_v18_apply, val_main_v17_apply, idx17_18]
  simp only [lidx16, ridx16]
  rfl

/-- The rectified first layer. -/
theorem v20_row (r : Fin 100000) (q : Fin 128) :
    val_main_v20 (F := Ideal) x0 x1 x2 x3 (ix2 r q)
      = GinRow.relu (GinRow.affine (fun k => val_main_v14 (F := Ideal) x0 x1 (ix2 r k)) (fun k j => val_main_v15 (F := Ideal) x2 (ix2 k j)) (fun j => x3 (ix1 j))) q := by
  rw [val_main_v20_apply, val_main_call0_v0_apply, val_main_call0_cst_apply, v19_row]
  rfl

/-- Row r after the two-layer perceptron. -/
abbrev hidden (r : Fin 100000) : GinRow.Row :=
  GinRow.affine (GinRow.relu (GinRow.affine (fun k => val_main_v14 (F := Ideal) x0 x1 (ix2 r k)) (fun k j => val_main_v15 (F := Ideal) x2 (ix2 k j)) (fun j => x3 (ix1 j))))
    (fun k j => val_main_v21 (F := Ideal) x4 (ix2 k j)) (fun j => x5 (ix1 j))

/-- The second linear layer. -/
theorem v25_row (r : Fin 100000) (q : Fin 128) :
    val_main_v25 (F := Ideal) x0 x1 x2 x3 x4 x5 (ix2 r q) = hidden x0 x1 x2 x3 x4 x5 r q := by
  rw [val_main_v25_apply, val_main_v22_apply, val_main_v24_apply, val_main_v23_apply, idx23_24]
  simp only [lidx22, ridx22, v20_row]
  rfl

theorem v25_fun (r : Fin 100000) :
    (fun k : Fin 128 => val_main_v25 (F := Ideal) x0 x1 x2 x3 x4 x5 (ix2 r k)) = hidden x0 x1 x2 x3 x4 x5 r :=
  funext fun k => v25_row x0 x1 x2 x3 x4 x5 r k

/-- The rows' means, kept as a column. -/
theorem v29_at (r : Fin 100000) (u : Fin 1) :
    val_main_v29 (F := Ideal) x0 x1 x2 x3 x4 x5 (ix2 r u) = GinRow.mean (hidden x0 x1 x2 x3 x4 x5 r) := by
  rw [val_main_v29_apply, val_main_v27_apply, val_main_v26_apply, val_main_v28_apply, val_main_cst_2_apply, val_main_cst_1_apply]
  simp only [idx26_27, v25_row]
  show Ideal.div (Ideal.ofBits .f32 0x00000000#32 + _) _ = _
  rw [Ideal.ofBits_zero_f32, zero_add]
  rfl

/-- The centred rows (the reference prints them twice: for the variance and for the quotient). -/
theorem v31_row (r : Fin 100000) (q : Fin 128) :
    val_main_v31 (F := Ideal) x0 x1 x2 x3 x4 x5 (ix2 r q) = GinRow.centred (hidden x0 x1 x2 x3 x4 x5 r) q := by
  rw [val_main_v31_apply, val_main_v30_apply, idx30, v29_at, v25_row]
  rfl

theorem v38_row (r : Fin 100000) (q : Fin 128) :
    val_main_v38 (F := Ideal) x0 x1 x2 x3 x4 x5 (ix2 r q) = GinRow.centred (hidden x0 x1 x2 x3 x4 x5 r) q := by
  rw [val_main_v38_apply, val_main_v37_apply, idx37, v29_at, v25_row]
  rfl

/-- The rows' variances, kept as a column. -/
theorem v36_at (r : Fin 100000) (u : Fin 1) :
    val_main_v36 (F := Ideal) x0 x1 x2 x3 x4 x5 (ix2 r u)
      = GinRow.mean (fun k => GinRow.centred (hidden x0 x1 x2 x3 x4 x5 r) k * GinRow.centred (hidden x0 x1 x2 x3 x4 x5 r) k) := by
  rw [val_main_v36_apply, val_main_v34_apply, val_main_v33_apply, val_main_v35_apply, val_main_cst_4_apply, val_main_cst_3_apply]
  simp only [idx33_34, val_main_v32_apply, v31_row]
  show Ideal.div (Ideal.ofBits .f32 0x00000000#32 + _) _ = _
  rw [Ideal.ofBits_zero_f32, zero_add]
  rfl

/-- The normalised rows. -/
theorem v43_row (r : Fin 100000) (q : Fin 128) :
    val_main_v43 (F := Ideal) x0 x1 x2 x3 x4 x5 (ix2 r q) = GinRow.normed (hidden x0 x1 x2 x3 x4 x5 r) q := by
  rw [val_main_v43_apply, v38_row, val_main_v42_apply, idx42, val_main_v41_apply, val_main_v40_apply, v36_at,
    val_main_v39_apply, val_main_cst_5_apply]
  rfl

/-- THE REFERENCE'S RESULT at (r, q): the node update of row r. -/
theorem v51_row (r : Fin 100000) (q : Fin 128) :
    val_main_v51 (F := Ideal) x0 x1 x2 x3 x4 x5 x6 x7 (ix2 r q)
      = GinRow.update (fun k => val_main_v14 (F := Ideal) x0 x1 (ix2 r k)) (fun k => x0 (ix2 r k)) (fun k j => val_main_v15 (F := Ideal) x2 (ix2 k j))
          (fun j => x3 (ix1 j)) (fun k j => val_main_v21 (F := Ideal) x4 (ix2 k j)) (fun j => x5 (ix1 j)) (fun j => x6 (ix1 j)) (fun j => x7 (ix1 j)) q := by
  rw [val_main_v51_apply, val_main_v50_apply, val_main_call1_v0_apply, val_main_call1_cst_apply, val_main_v49_apply,
    val_main_v46_apply, v43_row, val_main_v45_apply, val_main_v44_apply, idx44_45, val_main_v48_apply, val_main_v47_apply, idx47_48]
  rfl

/-- The reference's result array is the layer of its aggregated array, the features, the two transposed weight
    matrices and the four parameter rows. -/
theorem result_eq :
    val_main_v51 (F := Ideal) x0 x1 x2 x3 x4 x5 x6 x7
      = GinRow.layer (N := 100000) (val_main_v14 (F := Ideal) x0 x1) x0 (val_main_v15 (F := Ideal) x2) x3 (val_main_v21 (F := Ideal) x4) x5 x6 x7 := by
  funext i
  obtain ⟨r, q, rfl⟩ : ∃ (r : Fin 100000) (q : Fin 128), i = ix2 r q := ⟨i 0, i 1, eq_ix2 i⟩
  exact v51_row x0 x1 x2 x3 x4 x5 x6 x7 r q

end Cert.ReferenceIdeal.Whole

end
-- ==== Proof.lean ====
/-
  A graph-isomorphism layer on 100000 nodes of 128 features: neighbour aggregation, a two-layer perceptron, layer
  normalisation, a rectifier and a residual — a tiled kernel against its whole-array reference, equal on the
  extended reals.

  Both programs first compute, with the same host operations, the aggregated array (every node's features plus the
  scatter-added features gathered along the edges) and the two weight matrices transposed. The kernel then
  streams 50 blocks of 2000 rows through one body; the reference applies the same operations to the whole arrays.
  A row of the result depends only on the same row of the aggregated array and of the features, through the row
  function of GinRow.lean, and both programs evaluate exactly that function on every row: the products are the
  same sums over the contracted feature (the changes of float format are the identity at exact arithmetic), the
  row means are the same sums divided by the same word 128, the reduction's zero initial value drops out, and the
  inverse square root and the ε word are the same on both sides. No step needs an entry to be finite, so the
  precondition is never opened.

  The kernel's run and what each grid point writes back, and the reference's run read one operation at a time, are
  the generated modules; written here: the row function, the body's payload and every reference stage read at an
  entry, the passage from the 50 blocks to the array, and the arrays the region finds as functions of the arguments.
-/
import proofs.«169018_j72353019069071_1_alg».proof.Defs
import proofs.«169018_j72353019069071_1_alg».proof.Proof.Gen.Kernel
import proofs.«169018_j72353019069071_1_alg».proof.Proof.Gen.Kernel.Skeleton
import proofs.«169018_j72353019069071_1_alg».proof.Proof.Gen.Kernel.Launch
import proofs.«169018_j72353019069071_1_alg».proof.Proof.Gen.Kernel.Points
import proofs.«169018_j72353019069071_1_alg».proof.Proof.Gen.Kernel.Frame
import proofs.«169018_j72353019069071_1_alg».proof.Proof.Gen.KernelIdeal
import proofs.«169018_j72353019069071_1_alg».proof.Proof.Gen.KernelIdeal.Skeleton
import proofs.«169018_j72353019069071_1_alg».proof.Proof.Gen.KernelIdeal.Launch
import proofs.«169018_j72353019069071_1_alg».proof.Proof.Gen.KernelIdeal.Points
import proofs.«169018_j72353019069071_1_alg».proof.Proof.Gen.KernelIdeal.Frame
import proofs.«169018_j72353019069071_1_alg».proof.Proof.Gen.ReferenceIdeal
import proofs.«169018_j72353019069071_1_alg».proof.Proof.Gen.KernelIdeal.Value
import proofs.«169018_j72353019069071_1_alg».proof.Proof.Gen.ReferenceIdeal.Run
import proofs.«169018_j72353019069071_1_alg».proof.Proof.Gen.ReferenceIdeal.Read
import proofs.«169018_j72353019069071_1_alg».proof.Proof.Gen.Pre_finite_inputs
import proofs.«169018_j72353019069071_1_alg».proof.Proof.KernelWhole
import proofs.«169018_j72353019069071_1_alg».proof.Proof.KernelHost
import proofs.«169018_j72353019069071_1_alg».proof.Proof.RefWhole
import Idealize.ShloMosaic.Adequacy
import Idealize.ShloMosaic.Init

noncomputable section

namespace Cert.Proof

open Idealize.ShloMosaic Idealize.ShloMosaic.TcCoe Idealize.SL.Sem

/-! ## The three frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at exact arithmetic. -/
theorem preserves : Cert.preserves_Kernel_KernelIdeal := trivial

/-! ## Equal results -/

/-- The layer of the launched arguments: the common value of the two programs' results. -/
abbrev common (x0 : Cert.ReferenceIdeal.S100000x128.Idx → EReal) (x1 : Cert.ReferenceIdeal.S2x600000.Idx → BitVec 32)
    (x2 : Cert.ReferenceIdeal.S128x128.Idx → EReal) (x3 : Cert.ReferenceIdeal.S128.Idx → EReal)
    (x4 : Cert.ReferenceIdeal.S128x128.Idx → EReal) (x5 x6 x7 : Cert.ReferenceIdeal.S128.Idx → EReal) :
    Cert.ReferenceIdeal.S100000x128.Idx → EReal :=
  GinRow.layer (N := 100000) (Cert.ReferenceIdeal.Read.val_main_v14 (F := Ideal) x0 x1) x0
    (Cert.ReferenceIdeal.Read.val_main_v15 (F := Ideal) x2) x3 (Cert.ReferenceIdeal.Read.val_main_v21 (F := Ideal) x4) x5 x6 x7

/-- The kernel's result array, as a function of the launched arguments: the arrays its region finds are the
    reference's aggregation and transposes of them, and the arguments themselves. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.result m c
      = common (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)) := by
  unfold Cert.KernelIdeal.Whole.result
  rw [Cert.KernelIdeal.HostPrefix.V_agg, Cert.KernelIdeal.HostPrefix.V_w1, Cert.KernelIdeal.HostPrefix.V_w2,
    Cert.KernelIdeal.Gen.V_main_arg0, Cert.KernelIdeal.Gen.V_main_arg3, Cert.KernelIdeal.Gen.V_main_arg5,
    Cert.KernelIdeal.Gen.V_main_arg6, Cert.KernelIdeal.Gen.V_main_arg7]

/-- From memories agreeing on the arguments both programs end with the layer of the arguments in their result. -/
theorem algebraic : Cert.algebraic_KernelIdeal_ReferenceIdeal := by
  intro m ρ m' ρ' _ hagree
  refine ⟨fun c => common (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)), ?_, ?_⟩
  · exact (θ_run Cert.KernelIdeal.defs _ _).mono (fun r h c => ⟨(h c).1.trans (kernel_result m c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, Cert.ReferenceIdeal.Whole.result_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
